-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x32 : Shape := ⟨2, ![100000, 32]⟩
abbrev S1600000 : Shape := ⟨1, ![1600000]⟩
abbrev S100000 : Shape := ⟨1, ![100000]⟩
abbrev S128x256 : Shape := ⟨2, ![128, 256]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S100000 : S_.BroadcastsInDim S100000 (![] : Fin 0 → Fin S100000.rank)
  reducesTo_S100000_S_d0 : S100000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg7 : FVec F S128x256 .f32) (main_arg8 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128x256 .f32 := Host.absf main_arg7
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S100000x128 .f32) (main_arg1 : FVec F S100000x32 .f32) (main_arg2 : IVec S100000x32 32) (main_arg3 : IVec S1600000 32) (main_arg4 : IVec S1600000 32) (main_arg5 : FVec F S100000 .f32) (main_arg6 : FVec F S128x256 .f32) (main_arg7 : FVec F S128x256 .f32) (main_arg8 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S100000 .f32 := Host.absf main_arg5
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S128x256 .f32 := Host.absf main_arg6
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg7 main_arg8 main_v13 main_v16
-- ==== Kernel.lean ====
abbrev S100000x128 : Shape := ⟨2, ![100000, 128]⟩
abbrev S100000x32 : Shape := ⟨2, ![100000, 32]⟩
abbrev S1600000 : Shape := ⟨1, ![1600000]⟩
abbrev S100000 : Shape := ⟨1, ![100000]⟩
abbrev S128x256 : Shape := ⟨2, ![128, 256]⟩
abbrev S256 : Shape := ⟨1, ![256]⟩
abbrev S100000x1 : Shape := ⟨2, ![100000, 1]⟩
abbrev S_ : Shape := ⟨0, ![]⟩
abbrev S100000x32x1 : Shape := ⟨3, ![100000, 32, 1]⟩
abbrev S100000x32x2 : Shape := ⟨3, ![100000, 32, 2]⟩
abbrev S1600000x1 : Shape := ⟨2, ![1600000, 1]⟩
abbrev S1600000x128 : Shape := ⟨2, ![1600000, 128]⟩
abbrev S100000x256 : Shape := ⟨2, ![100000, 256]⟩
abbrev S2000x128 : Shape := ⟨2, ![2000, 128]⟩
abbrev S2000x256 : Shape := ⟨2, ![2000, 256]⟩
abbrev S1x256 : Shape := ⟨2, ![1, 256]⟩

abbrev nBuf : Space → Nat
  | .hbm => 49
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S100000x32, .f32⟩
  | .hbm, ⟨2, _⟩ => ⟨S100000x32, .i32⟩
  | .hbm, ⟨3, _⟩ => ⟨S1600000, .i32⟩
  | .hbm, ⟨4, _⟩ => ⟨S1600000, .i32⟩
  | .hbm, ⟨5, _⟩ => ⟨S100000, .f32⟩
  | .hbm, ⟨6, _⟩ => ⟨S128x256, .f32⟩
  | .hbm, ⟨7, _⟩ => ⟨S128x256, .f32⟩
  | .hbm, ⟨8, _⟩ => ⟨S256, .f32⟩
  | .hbm, ⟨9, _⟩ => ⟨S100000, .i32⟩
  | .hbm, ⟨10, _⟩ => ⟨S100000x1, .i32⟩
  | .hbm, ⟨11, _⟩ => ⟨S_, .f32⟩
  | .hbm, ⟨12, _⟩ => ⟨S100000x128, .f32⟩
  | .hbm, ⟨13, _⟩ => ⟨S_, .i32⟩
  | .hbm, ⟨14, _⟩ => ⟨S100000x1, .i32⟩
  | .hbm, ⟨15, _⟩ => ⟨S100000x1, .i1⟩
  | .hbm, ⟨16, _⟩ => ⟨S_, .i32⟩
  | .hbm, ⟨17, _⟩ => ⟨S100000x1, .i32⟩
  | .hbm, ⟨18, _⟩ => ⟨S100000x1, .i32⟩
  | .hbm, ⟨19, _⟩ => ⟨S100000x1, .i32⟩
  | .hbm, ⟨20, _⟩ => ⟨S_, .i32⟩
  | .hbm, ⟨21, _⟩ => ⟨S100000x32, .i32⟩
  | .hbm, ⟨22, _⟩ => ⟨S100000x32, .i1⟩
  | .hbm, ⟨23, _⟩ => ⟨S_, .i32⟩
  | .hbm, ⟨24, _⟩ => ⟨S100000x32, .i32⟩
  | .hbm, ⟨25, _⟩ => ⟨S100000x32, .i32⟩
  | .hbm, ⟨26, _⟩ => ⟨S100000x32, .i32⟩
  | .hbm, ⟨27, _⟩ => ⟨S100000x32, .i32⟩
  | .hbm, ⟨28, _⟩ => ⟨S100000x32x1, .i32⟩
  | .hbm, ⟨29, _⟩ => ⟨S100000x32x1, .i32⟩
  | .hbm, ⟨30, _⟩ => ⟨S100000x32x2, .i32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S256, .f32⟩
  | .local _ .vmem, ⟨7, _⟩ => ⟨S2000x256, .f32⟩
  | .local _ .vmem, ⟨8, _⟩ => ⟨S2000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S_S100000x1 : S_.BroadcastsInDim S100000x1 (![] : Fin 0 → Fin S100000x1.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S100000x32_S100000x32x1_0_1 : S100000x32.BroadcastsInDim S100000x32x1 (![0, 1] : Fin 2 → Fin S100000x32x1.rank)
  concatenates_S100000x32x1_S100000x32x1_S100000x32x2_d2 : Shape.Concatenates [S100000x32x1, S100000x32x1] S100000x32x2 2
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000x1_S100000x128_0_1 : S100000x1.BroadcastsInDim S100000x128 (![0, 1] : Fin 2 → Fin S100000x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  scatter_S100000x128_S100000x32x2_S100000x32_n_01_01_2_wf : ScatterDims.WF S100000x128 S100000x32x2 S100000x32 [] [0, 1] [0, 1] 2
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)

variable [Facts₀]

def scatter_S100000x128_S100000x32x2_S100000x32_n_01_01_2 : ScatterDims S100000x128 S100000x32x2 S100000x32 where
  updateWindowDims := []
  insertedWindowDims := [0, 1]
  scatterDimsToOperandDims := [0, 1]
  indexVectorDim := 2
  wf := scatter_S100000x128_S100000x32x2_S100000x32_n_01_01_2_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S100000x32 : Shape := ⟨2, ![100000, 32]⟩
abbrev S1600000 : Shape := ⟨1, ![1600000]⟩
abbrev S100000 : Shape := ⟨1, ![100000]⟩
abbrev S128x256 : Shape := ⟨2, ![128, 256]⟩
abbrev S256 : Shape := ⟨1, ![256]⟩
abbrev S100000x1 : Shape := ⟨2, ![100000, 1]⟩
abbrev S_ : Shape := ⟨0, ![]⟩
abbrev S100000x32x1 : Shape := ⟨3, ![100000, 32, 1]⟩
abbrev S100000x32x2 : Shape := ⟨3, ![100000, 32, 2]⟩
abbrev S1600000x1 : Shape := ⟨2, ![1600000, 1]⟩
abbrev S1600000x128 : Shape := ⟨2, ![1600000, 128]⟩
abbrev S100000x256 : Shape := ⟨2, ![100000, 256]⟩
abbrev S1x256 : Shape := ⟨2, ![1, 256]⟩

abbrev nBuf : Space → Nat
  | .hbm => 54
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x32, .f32⟩
  | .hbm, ⟨2, _⟩ => ⟨S100000x32, .i32⟩
  | .hbm, ⟨3, _⟩ => ⟨S1600000, .i32⟩
  | .hbm, ⟨4, _⟩ => ⟨S1600000, .i32⟩
  | .hbm, ⟨5, _⟩ => ⟨S100000, .f32⟩
  | .hbm, ⟨6, _⟩ => ⟨S128x256, .f32⟩
  | .hbm, ⟨7, _⟩ => ⟨S128x256, .f32⟩
  | .hbm, ⟨8, _⟩ => ⟨S256, .f32⟩
  | .hbm, ⟨9, _⟩ => ⟨S100000, .i32⟩
  | .hbm, ⟨10, _⟩ => ⟨S100000x1, .i32⟩
  | .hbm, ⟨11, _⟩ => ⟨S_, .f32⟩
  | .hbm, ⟨12, _⟩ => ⟨S100000x128, .f32⟩
  | .hbm, ⟨13, _⟩ => ⟨S_, .i32⟩
  | .hbm, ⟨14, _⟩ => ⟨S100000x1, .i32⟩
  | .hbm, ⟨15, _⟩ => ⟨S100000x1, .i1⟩
  | .hbm, ⟨16, _⟩ => ⟨S_, .i32⟩
  | .hbm, ⟨17, _⟩ => ⟨S100000x1, .i32⟩
  | .hbm, ⟨18, _⟩ => ⟨S100000x1, .i32⟩
  | .hbm, ⟨19, _⟩ => ⟨S100000x1, .i32⟩
  | .hbm, ⟨20, _⟩ => ⟨S_, .i32⟩
  | .hbm, ⟨21, _⟩ => ⟨S100000x32, .i32⟩
  | .hbm, ⟨22, _⟩ => ⟨S100000x32, .i1⟩
  | .hbm, ⟨23, _⟩ => ⟨S_, .i32⟩
  | .hbm, ⟨24, _⟩ => ⟨S100000x32, .i32⟩
  | .hbm, ⟨25, _⟩ => ⟨S100000x32, .i32⟩
  | .hbm, ⟨26, _⟩ => ⟨S100000x32, .i32⟩
  | .hbm, ⟨27, _⟩ => ⟨S100000x32, .i32⟩
  | .hbm, ⟨28, _⟩ => ⟨S100000x32x1, .i32⟩
  | .hbm, ⟨29, _⟩ => ⟨S100000x32x1, .i32⟩
  | .hbm, ⟨30, _⟩ => ⟨S100000x32x2, .i32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S100000x256, .f32⟩
  | .hbm, ⟨49, _⟩ => ⟨S100000x256, .f32⟩
  | .hbm, ⟨50, _⟩ => ⟨S1x256, .f32⟩
  | .hbm, ⟨51, _⟩ => ⟨S100000x256, .f32⟩
  | .hbm, ⟨52, _⟩ => ⟨S100000x256, .f32⟩
  | .hbm, ⟨53, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S_S100000x1 : S_.BroadcastsInDim S100000x1 (![] : Fin 0 → Fin S100000x1.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S100000x32_S100000x32x1_0_1 : S100000x32.BroadcastsInDim S100000x32x1 (![0, 1] : Fin 2 → Fin S100000x32x1.rank)
  concatenates_S100000x32x1_S100000x32x1_S100000x32x2_d2 : Shape.Concatenates [S100000x32x1, S100000x32x1] S100000x32x2 2
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000x128_S100000x32x2_S100000x32_n_01_01_2_wf : ScatterDims.WF S100000x128 S100000x32x2 S100000x32 [] [0, 1] [0, 1] 2
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []

variable [Facts₀]

def scatter_S100000x128_S100000x32x2_S100000x32_n_01_01_2 : ScatterDims S100000x128 S100000x32x2 S100000x32 where
  updateWindowDims := []
  insertedWindowDims := [0, 1]
  scatterDimsToOperandDims := [0, 1]
  indexVectorDim := 2
  wf := scatter_S100000x128_S100000x32x2_S100000x32_n_01_01_2_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.LayerSpec.lean ====
/-
  The layer both programs compute, as ONE function of five arrays, entry by entry, on the extended reals:
  with X, Y of shape [100000, 128], A, B of shape [128, 256] and b of shape [256],

      out (r, c) = ( (sum over k of X (r, k) * A (k, c)) + b c ) + (sum over k of Y (r, k) * B (k, c)).

  The grouping is part of the definition: the bias is added to the first product and the second product is added
  last, which is how both programs associate, so that no rearrangement (and hence no finiteness) is ever needed.
-/
import Idealize.ShloMosaic.PureOps.Ideal
import Idealize.ShloMosaic.Lib.ValueIdx

noncomputable section

namespace Cert.TwoProjections

open Idealize.ShloMosaic Idealize.ShloMosaic.ValueIdx

/-- Entry (r, c) of X·A + b + Y·B, grouped (X·A + b) + Y·B. -/
def entry (X Y : FVec Ideal ⟨2, ![100000, 128]⟩ .f32) (A B : FVec Ideal ⟨2, ![128, 256]⟩ .f32)
    (b : FVec Ideal ⟨1, ![256]⟩ .f32) (r : Fin 100000) (c : Fin 256) : EReal :=
  ((∑ k : Fin 128, X (ix2 r k) * A (ix2 k c)) + b (ix1 c)) + ∑ k : Fin 128, Y (ix2 r k) * B (ix2 k c)

/-- The whole [100000, 256] array of those entries. -/
def layer (X Y : FVec Ideal ⟨2, ![100000, 128]⟩ .f32) (A B : FVec Ideal ⟨2, ![128, 256]⟩ .f32)
    (b : FVec Ideal ⟨1, ![256]⟩ .f32) : FVec Ideal ⟨2, ![100000, 256]⟩ .f32 :=
  fun j => entry X Y A B b (j 0) (j 1)

theorem layer_apply (X Y : FVec Ideal ⟨2, ![100000, 128]⟩ .f32) (A B : FVec Ideal ⟨2, ![128, 256]⟩ .f32)
    (b : FVec Ideal ⟨1, ![256]⟩ .f32) (r : Fin 100000) (c : Fin 256) :
    layer X Y A B b (ix2 r c) = entry X Y A B b r c := rfl

end Cert.TwoProjections

end
-- ==== Proof.BlockMatmul.lean ====
/-
  What the kernel body computes on one block of 2000 rows, entry by entry, at the ideal values.
  The body reads a [2000, 128] block of each of the two row-blocked arrays, both [128, 256] weight arrays and
  the [256] bias; changes of float format are the identity on the extended reals, a product accumulated into
  a zero array is the plain sum over the contracted axis (0 + x = x, at the infinities too), and the bias,
  cast to one row and broadcast down the rows, is read at its column. So entry (p, q) of the block is
      ( (sum over k of x (p, k) * ws (k, q)) + bias q ) + (sum over k of y (p, k) * wn (k, q)).
-/
import proofs.«142416_j62388694942254_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-! ## The product's operand indices: rows by columns, one contracted axis of extent 128 -/

theorem lhs_row (j : S2000x256.Idx) (q : dot_S2000x128_S128x256_S2000x256_1_0_0_1_n_n.contr.Idx) :
    (dot_S2000x128_S128x256_S2000x256_1_0_0_1_n_n.lhsIdx j q 0).val = (j 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl

theorem lhs_col (j : S2000x256.Idx) (q : dot_S2000x128_S128x256_S2000x256_1_0_0_1_n_n.contr.Idx) :
    (dot_S2000x128_S128x256_S2000x256_1_0_0_1_n_n.lhsIdx j q 1).val = (q ⟨0, by decide⟩).val :=
  dot_S2000x128_S128x256_S2000x256_1_0_0_1_n_n.lhsIdx_val_of_single rfl j q

theorem rhs_row (j : S2000x256.Idx) (q : dot_S2000x128_S128x256_S2000x256_1_0_0_1_n_n.contr.Idx) :
    (dot_S2000x128_S128x256_S2000x256_1_0_0_1_n_n.rhsIdx j q 0).val = (q ⟨0, by decide⟩).val :=
  dot_S2000x128_S128x256_S2000x256_1_0_0_1_n_n.rhsIdx_val_of_single rfl j q

theorem rhs_col (j : S2000x256.Idx) (q : dot_S2000x128_S128x256_S2000x256_1_0_0_1_n_n.contr.Idx) :
    (dot_S2000x128_S128x256_S2000x256_1_0_0_1_n_n.rhsIdx j q 1).val = (j 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- A [2000, 128] by [128, 256] product accumulated into the zero array, at (p, q): row p of the left operand
    against column q of the right one. -/
theorem matmul_entry {φ₁ φ₂ : FTy} (l : FVec Ideal S2000x128 φ₁) (r : FVec Ideal S128x256 φ₂) (p : Fin 2000) (q : Fin 256) :
    matmul dot_S2000x128_S128x256_S2000x256_1_0_0_1_n_n none l r (constant (F := Ideal) S2000x256 .f32 0x00000000#32) (ix2 p q)
      = ∑ k : Fin 128, l (ix2 p k) * r (ix2 k q) := by
  show FloatOps.matmul dot_S2000x128_S128x256_S2000x256_1_0_0_1_n_n none l r (constant (F := Ideal) S2000x256 .f32 0x00000000#32) (ix2 p q) = _
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k :=
    funext fun a => Fin.ext (by
      match a with
      | ⟨0, _⟩ => exact lhs_row _ _
      | ⟨1, _⟩ => exact (lhs_col _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The bias as the body lays it out, one row broadcast down 2000 rows, at (p, q): the bias at q. -/
theorem bias_entry (v : FVec Ideal S256 .f32) (p : Fin 2000) (q : Fin 256) :
    broadcastTo S2000x256 (shapeCast S1x256 v shapeCasts_S256_S1x256) broadcasts_S1x256_S2000x256 (ix2 p q) = v (ix1 q) :=
  (broadcastTo_1b_ab_apply _ broadcasts_S1x256_S2000x256 p q).trans
    (shapeCast_a_1a_apply v shapeCasts_S256_S1x256 (0 : Fin 1) q)

/-- THE BODY'S STORED VALUE at (p, q). -/
theorem payload_entry (x y : Vec Ideal S2000x128 .f32) (wn ws : Vec Ideal S128x256 .f32) (bias : Vec Ideal S256 .f32)
    (p : Fin 2000) (q : Fin 256) :
    k0_pay1 (F := Ideal) x y wn ws bias (ix2 p q)
      = ((∑ k : Fin 128, x (ix2 p k) * ws (ix2 k q)) + bias (ix1 q)) + ∑ k : Fin 128, y (ix2 p k) * wn (ix2 k q) := by
  unfold k0_pay1
  rw [addf_apply, addf_apply, matmul_entry, matmul_entry, bias_entry, shapeCast_self]
  rfl

end Cert.KernelIdeal.Body

end
-- ==== Proof.KernelLayer.lean ====
/-
  The kernel's output array after the run is the layer of LayerSpec.lean, of the arrays the region finds.
  The grid has 50 points; point t works on rows 2000 t .. 2000 t + 1999. It reads that block of rows of the two
  row-blocked arrays, the two weight arrays and the bias whole, and writes back that block of rows of the output.
  Entry (p, q) of what it writes is entry (2000 t + p, q) of the layer (BlockMatmul.lean), and the 50 blocks
  tile the 100000 rows, so the whole output array is the layer.
-/
import proofs.«142416_j62388694942254_1_alg».proof.Proof.Gen.KernelIdeal.Value
import proofs.«142416_j62388694942254_1_alg».proof.Proof.LayerSpec
import proofs.«142416_j62388694942254_1_alg».proof.Proof.BlockMatmul

noncomputable section

namespace Cert.KernelIdeal.Blocks

open Cert.KernelIdeal Cert.KernelIdeal.Gen Cert.KernelIdeal.Value Cert.TwoProjections
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets2 : (![0, 0] : Fin 2 → Nat) = fun _ => 0 := funext fun a => by fin_cases a <;> rfl
theorem zero_offsets1 : (![0] : Fin 1 → Nat) = fun _ => 0 := funext fun a => by fin_cases a; rfl

/-- The printed index maps over the 50 grid points: the two row-blocked inputs move with the output's row block,
    the weights and the bias stay at block 0, and the output's row block at point t is t. -/
theorem index_facts : ∀ t : Fin cfg0.N,
      win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 49 :=
  (by decide +kernel : ∀ t : Fin grid0.N, _)

/-- Every one of the 50 row blocks is some point's. -/
theorem block_onto : ∀ b : Fin 50, ∃ t : Fin cfg0.N, win0_5.index t (0 : Fin 2) = b.val :=
  (by decide +kernel : ∀ b : Fin 50, ∃ t : Fin grid0.N, win0_5.index t (0 : Fin 2) = b.val)

/-- WHAT POINT t WRITES BACK is block t of the layer of the arrays as the region finds them. -/
theorem flushed_eq (c : Dev nD) (t : Fin cfg0.N) :
    (dats m 0 c).flushed 5 t = ((cfg0.win 5).blk t).view.read (Elt Ideal)
      (layer (V m c main_arg0) (V m c main_v30) (V m c main_arg7) (V m c main_arg6) (V m c main_arg8)) := by
  rw [flushed5]
  unfold out0_5
  rw [View.canon_unit_zero zero_offsets2]
  simp only [View.ld_unit_zero (S := S2000x128) zero_offsets2, View.ld_unit_zero (S := S128x256) zero_offsets2,
    View.ld_unit_zero (S := S256) zero_offsets1]
  obtain ⟨e00, e01, e10, e11, e20, e21, e30, e31, e40, e51, e50⟩ := index_facts t
  funext y
  obtain ⟨p, q, rfl⟩ : ∃ (p : Fin 2000) (q : Fin 256), y = ix2 p q := ⟨y 0, y 1, eq_ix2 y⟩
  show k0_pay1 (F := Ideal) (iblk m c 0 t) (iblk m c 1 t) (iblk m c 2 t) (iblk m c 3 t) (iblk m c 4 t) (ix2 p q)
    = layer (V m c main_arg0) (V m c main_v30) (V m c main_arg7) (V m c main_arg6) (V m c main_arg8)
        (((cfg0.win 5).blk t).view.emb (ix2 p q))
  refine (Body.payload_entry (iblk m c 0 t) (iblk m c 1 t) (iblk m c 2 t) (iblk m c 3 t) (iblk m c 4 t) p q).trans ?_
  -- the array index this block entry lands on: row 2000 t + p, column q
  have hr : win0_5.index t (0 : Fin 2) * 2000 + p.val < 100000 := by have := p.isLt; omega
  have hemb : ((cfg0.win 5).blk t).view.emb (ix2 p q)
      = ix2 (⟨win0_5.index t (0 : Fin 2) * 2000 + p.val, hr⟩ : Fin 100000) q := by
    funext a; apply Fin.ext
    match a with
    | ⟨0, _⟩ => show win0_5.index t (0 : Fin 2) * 2000 + 1 * p.val = win0_5.index t (0 : Fin 2) * 2000 + p.val; omega
    | ⟨1, _⟩ => show win0_5.index t (1 : Fin 2) * 256 + 1 * q.val = q.val; omega
  rw [hemb, layer_apply]
  unfold entry
  -- each input block read where the output's block says: the row blocks at row 2000 t + p, the rest whole
  have hx : ∀ k : Fin 128, iblk m c 0 t (ix2 p k)
      = V m c main_arg0 (ix2 (⟨win0_5.index t (0 : Fin 2) * 2000 + p.val, hr⟩ : Fin 100000) k) := fun k => by
    show V m c main_arg0 (((cfg0.win 0).blk t).view.emb (ix2 p k)) = _
    refine congrArg (V m c main_arg0) (funext fun a => Fin.ext ?_)
    match a with
    | ⟨0, _⟩ => show win0_0.index t (0 : Fin 2) * 2000 + 1 * p.val = win0_5.index t (0 : Fin 2) * 2000 + p.val; omega
    | ⟨1, _⟩ => show win0_0.index t (1 : Fin 2) * 128 + 1 * k.val = k.val; omega
  have hy : ∀ k : Fin 128, iblk m c 1 t (ix2 p k)
      = V m c main_v30 (ix2 (⟨win0_5.index t (0 : Fin 2) * 2000 + p.val, hr⟩ : Fin 100000) k) := fun k => by
    show V m c main_v30 (((cfg0.win 1).blk t).view.emb (ix2 p k)) = _
    refine congrArg (V m c main_v30) (funext fun a => Fin.ext ?_)
    match a with
    | ⟨0, _⟩ => show win0_1.index t (0 : Fin 2) * 2000 + 1 * p.val = win0_5.index t (0 : Fin 2) * 2000 + p.val; omega
    | ⟨1, _⟩ => show win0_1.index t (1 : Fin 2) * 128 + 1 * k.val = k.val; omega
  have hwn : ∀ k : Fin 128, iblk m c 2 t (ix2 k q) = V m c main_arg6 (ix2 k q) := fun k => by
    show V m c main_arg6 (((cfg0.win 2).blk t).view.emb (ix2 k q)) = _
    refine congrArg (V m c main_arg6) (funext fun a => Fin.ext ?_)
    match a with
    | ⟨0, _⟩ => show win0_2.index t (0 : Fin 2) * 128 + 1 * k.val = k.val; omega
    | ⟨1, _⟩ => show win0_2.index t (1 : Fin 2) * 256 + 1 * q.val = q.val; omega
  have hws : ∀ k : Fin 128, iblk m c 3 t (ix2 k q) = V m c main_arg7 (ix2 k q) := fun k => by
    show V m c main_arg7 (((cfg0.win 3).blk t).view.emb (ix2 k q)) = _
    refine congrArg (V m c main_arg7) (funext fun a => Fin.ext ?_)
    match a with
    | ⟨0, _⟩ => show win0_3.index t (0 : Fin 2) * 128 + 1 * k.val = k.val; omega
    | ⟨1, _⟩ => show win0_3.index t (1 : Fin 2) * 256 + 1 * q.val = q.val; omega
  have hb : iblk m c 4 t (ix1 q) = V m c main_arg8 (ix1 q) := by
    show V m c main_arg8 (((cfg0.win 4).blk t).view.emb (ix1 q)) = _
    refine congrArg (V m c main_arg8) (funext fun a => Fin.ext ?_)
    match a with
    | ⟨0, _⟩ => show win0_4.index t (0 : Fin 1) * 256 + 1 * q.val = q.val; omega
  simp only [hx, hy, hwn, hws, hb]

/-- An index of the output array is in point t's block iff each coordinate is in the block's range on its axis. -/
theorem mem_block (t : Fin cfg0.N) (i : S100000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v31).slice (win0_5.rect t)).set ↔ _
  rw [View.set_slice_whole, Rect.mem_set_unit]
  exact Iff.rfl

/-- THE 50 BLOCKS TILE THE ROWS: row r is in the block of the point whose row block is r / 2000. -/
theorem cover (i : S100000x256.Idx) :
    ∃ t : Fin cfg0.N, (cfg0.win 5).flush t = true ∧ i ∈ ((cfg0.win 5).blk t).view.set := by
  have hi0 : (i 0).val < 100000 := (i 0).isLt
  have hi1 : (i 1).val < 256 := (i 1).isLt
  obtain ⟨t, ht⟩ := block_onto ⟨(i 0).val / 2000, by omega⟩
  have ht' : win0_5.index t (0 : Fin 2) = (i 0).val / 2000 := ht
  obtain ⟨-, -, -, -, -, -, -, -, -, e51, -⟩ := index_facts t
  refine ⟨t, flush0_5 t, ?_⟩
  rw [mem_block]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 256 ≤ (i 1).val ∧ (i 1).val < win0_5.index t (1 : Fin 2) * 256 + 256
    omega

/-- THE OUTPUT ARRAY after the run is the layer of the arrays as the region finds them. -/
theorem final (c : Dev nD) : (dats m 0 c).arrAt 5 cfg0.N
    = layer (V m c main_arg0) (V m c main_v30) (V m c main_arg7) (V m c main_arg6) (V m c main_arg8) :=
  (dats m 0 c).arrAt_eq_of_cover 5 _ (fun t _ => flushed_eq m c t) cover

/-- The kernel's run, with the result named: the layer of the first argument, the array the host operations before
    the region left for the second operand, the two weight arguments and the bias argument; arguments unchanged. -/
theorem run : θ_run defs (onTc (τ := τ) (main (F := Ideal))) ⟨m, fun _ => 0, ρ⟩ fun r => ∀ c : Dev nD,
      r.2.mem ((c : Thread nD τ).loc main_v31)
        = layer (m ((c : Thread nD τ).loc main_arg0)) (V m c main_v30) (m ((c : Thread nD τ).loc main_arg7))
            (m ((c : Thread nD τ).loc main_arg6)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((final m c).trans (by
      rw [V_main_arg0, V_main_arg6, V_main_arg7, V_main_arg8])), (h c).2⟩)
    (run_blocks m ρ)

end Cert.KernelIdeal.Blocks

end
-- ==== Proof.RefLayer.lean ====
/-
  The reference's result, read entry by entry, is the layer of LayerSpec.lean.
  Its last six operations are two matrix products (each a sum over the contracted axis of extent 128), the
  bias broadcast along the columns, and two additions grouped (X·A + b) + Y·B. The left operand of the second
  product is whatever the operations before it computed from the other five arguments; it is carried as one
  named array and never opened.
-/
import proofs.«142416_j62388694942254_1_alg».proof.Proof.Gen.ReferenceIdeal.Read
import proofs.«142416_j62388694942254_1_alg».proof.Proof.LayerSpec

noncomputable section

namespace Cert.ReferenceIdeal.RefLayer

open Cert.ReferenceIdeal Cert.ReferenceIdeal.Read Cert.TwoProjections
open Idealize.ShloMosaic Idealize.ShloMosaic.ValueIdx

/-! ## The operand indices of the two products and of the bias, as coordinates -/

theorem lidx31_eq (i : S100000x256.Idx) (k : Fin 128) : lidx_main_v31 i k = ix2 (i 0) k :=
  funext fun a => Fin.ext (by match a with | ⟨0, _⟩ => rfl | ⟨1, _⟩ => rfl)
theorem ridx31_eq (i : S100000x256.Idx) (k : Fin 128) : ridx_main_v31 i k = ix2 k (i 1) :=
  funext fun a => Fin.ext (by match a with | ⟨0, _⟩ => rfl | ⟨1, _⟩ => rfl)
theorem lidx32_eq (i : S100000x256.Idx) (k : Fin 128) : lidx_main_v32 i k = ix2 (i 0) k :=
  funext fun a => Fin.ext (by match a with | ⟨0, _⟩ => rfl | ⟨1, _⟩ => rfl)
theorem ridx32_eq (i : S100000x256.Idx) (k : Fin 128) : ridx_main_v32 i k = ix2 k (i 1) :=
  funext fun a => Fin.ext (by match a with | ⟨0, _⟩ => rfl | ⟨1, _⟩ => rfl)
theorem bias_idx_eq (i : S100000x256.Idx) : idx_main_v33 (idx_main_v34 i) = ix1 (i 1) :=
  funext fun a => Fin.ext (by match a with | ⟨0, _⟩ => rfl)

/-- THE REFERENCE'S LAST STAGE is the layer of the first argument, the array the earlier stages computed, the two
    weight arrays and the bias. -/
theorem stage_eq_layer (x0 : (⟨S100000x128, .f32⟩ : BufTy).Contents (Elt Ideal)) (x1 : (⟨S100000x32, .f32⟩ : BufTy).Contents (Elt Ideal))
    (x2 : (⟨S100000x32, .i32⟩ : BufTy).Contents (Elt Ideal)) (x3 x4 : (⟨S1600000, .i32⟩ : BufTy).Contents (Elt Ideal))
    (x5 : (⟨S100000, .f32⟩ : BufTy).Contents (Elt Ideal)) (x6 x7 : (⟨S128x256, .f32⟩ : BufTy).Contents (Elt Ideal))
    (x8 : (⟨S256, .f32⟩ : BufTy).Contents (Elt Ideal)) :
    val_main_v36 (F := Ideal) x0 x1 x2 x3 x4 x5 x6 x7 x8
      = layer x0 (val_main_v30 (F := Ideal) x1 x2 x3 x4 x5) x7 x6 x8 := by
  funext i
  rw [val_main_v36_apply, val_main_v35_apply, val_main_v32_apply, val_main_v34_apply, val_main_v33_apply,
    val_main_v31_apply]
  simp only [lidx31_eq, ridx31_eq, lidx32_eq, ridx32_eq, bias_idx_eq, Ideal.addf_def]
  rfl

end Cert.ReferenceIdeal.RefLayer

end
-- ==== Proof.NeighbourMean.lean ====
/-
  The second row-blocked operand of the kernel is not an argument: the host operations before the region compute
  it from five of the arguments (the sparse rows scattered to dense ones, gathered along the edges, summed per
  destination row and divided by the degrees). The reference computes the same array by the same operations of
  the same arguments, in the same order, before its two products. Neither side's proof looks inside it: this
  module only records that the array the region finds there IS the reference's stage, term for term.
-/
import proofs.«142416_j62388694942254_1_alg».proof.Proof.Gen.KernelIdeal.Frame
import proofs.«142416_j62388694942254_1_alg».proof.Proof.Gen.ReferenceIdeal.Read
import Idealize.ShloMosaic.Lib.StableHlo.Run

noncomputable section

namespace Cert.KernelIdeal.NeighbourMean

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 2000000 in
/-- What the region finds in its second operand's array: the reference's stage of arguments 1 to 5. -/
theorem entry_contents (c : Dev nD) :
    (V m c main_v30 : S100000x128.Idx → EReal)
      = Cert.ReferenceIdeal.Read.val_main_v30 (F := Ideal) (m ((c : Thread nD τ).loc main_arg1))
          (m ((c : Thread nD τ).loc main_arg2)) (m ((c : Thread nD τ).loc main_arg3))
          (m ((c : Thread nD τ).loc main_arg4)) (m ((c : Thread nD τ).loc main_arg5)) := by
  dsimp only [V, hostOps0]
  after_results_simp <;> rfl

end Cert.KernelIdeal.NeighbourMean

end
-- ==== Proof.lean ====
/-
  A graph layer with two dense projections: out = X·Ws + b + agg·Wn, where X is the [100000, 128] feature array,
  Ws and Wn are [128, 256] weight arrays, b a [256] bias, and agg a [100000, 128] array both programs compute
  first, by the same host operations of the same arguments (top-k values scattered to dense rows, gathered along
  the edges, summed per destination row, divided by the degrees).

  The kernel computes the layer 2000 rows at a time over a grid of 50 points, each point forming the two products
  of its row blocks with the whole weight arrays, adding the bias to the first product and the second product
  last. The reference forms the two products of the whole arrays and adds in the same grouping. On the extended
  reals a change of float format is the identity and a product accumulated into zero is the plain sum over the
  contracted axis, so entry (r, c) of both results is
      ( (sum over k of X (r, k) * Ws (k, c)) + b c ) + (sum over k of agg (r, k) * Wn (k, c)),
  the same expression with the same grouping: no term is moved, so nothing is asked of the inputs' finiteness.

  LayerSpec.lean states that function; BlockMatmul.lean reads one block of the kernel body at an entry;
  KernelLayer.lean assembles the 50 blocks into the whole array; RefLayer.lean reads the reference's last stage at
  an entry; NeighbourMean.lean identifies the array the kernel's region finds for agg with the reference's stage.
  The three frames are the generated ones (the reference's its generated run with the result dropped), and the
  idealization rewrote no operation, so there is nothing to preserve.
-/
import proofs.«142416_j62388694942254_1_alg».proof.Proof.Gen.Kernel
import proofs.«142416_j62388694942254_1_alg».proof.Proof.Gen.Kernel.Skeleton
import proofs.«142416_j62388694942254_1_alg».proof.Proof.Gen.Kernel.Launch
import proofs.«142416_j62388694942254_1_alg».proof.Proof.Gen.Kernel.Points
import proofs.«142416_j62388694942254_1_alg».proof.Proof.Gen.Kernel.Frame
import proofs.«142416_j62388694942254_1_alg».proof.Proof.Gen.KernelIdeal
import proofs.«142416_j62388694942254_1_alg».proof.Proof.Gen.KernelIdeal.Skeleton
import proofs.«142416_j62388694942254_1_alg».proof.Proof.Gen.KernelIdeal.Launch
import proofs.«142416_j62388694942254_1_alg».proof.Proof.Gen.KernelIdeal.Points
import proofs.«142416_j62388694942254_1_alg».proof.Proof.Gen.KernelIdeal.Frame
import proofs.«142416_j62388694942254_1_alg».proof.Proof.Gen.ReferenceIdeal
import proofs.«142416_j62388694942254_1_alg».proof.Proof.Gen.Pre_finite_inputs
import proofs.«142416_j62388694942254_1_alg».proof.Proof.Gen.KernelIdeal.Value
import proofs.«142416_j62388694942254_1_alg».proof.Proof.Gen.ReferenceIdeal.Run
import proofs.«142416_j62388694942254_1_alg».proof.Proof.Gen.ReferenceIdeal.Read
import proofs.«142416_j62388694942254_1_alg».proof.Proof.LayerSpec
import proofs.«142416_j62388694942254_1_alg».proof.Proof.BlockMatmul
import proofs.«142416_j62388694942254_1_alg».proof.Proof.KernelLayer
import proofs.«142416_j62388694942254_1_alg».proof.Proof.RefLayer
import proofs.«142416_j62388694942254_1_alg».proof.Proof.NeighbourMean
import proofs.«142416_j62388694942254_1_alg».proof.Defs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the layer of the same five arrays: the kernel's output array is the layer of what its
    region finds (KernelLayer.lean), the array it finds for the second operand is the reference's own stage
    (NeighbourMean.lean), the reference's result is the layer of its arguments and that stage (RefLayer.lean), and the
    two programs' arguments agree. -/
theorem algebraic : Cert.algebraic_KernelIdeal_ReferenceIdeal := by
  intro m ρ m' ρ' _ hagree
  refine ⟨fun c => Cert.TwoProjections.layer
      (m ((c.tc : Thread Cert.KernelIdeal.nD Cert.KernelIdeal.τ).loc Cert.KernelIdeal.main_arg0))
      (Cert.ReferenceIdeal.Read.val_main_v30 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.Blocks.run m ρ)
    rw [Cert.KernelIdeal.NeighbourMean.entry_contents m c]
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v36_eq, Cert.ReferenceIdeal.RefLayer.stage_eq_layer, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
